-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x16 : Shape := ⟨2, ![512, 16]⟩
abbrev S512x512 : Shape := ⟨2, ![512, 512]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S65536x512 .f32) (main_arg1 : FVec F S512x16 .f32) (main_arg2 : FVec F S512x16 .f32) (main_arg3 : FVec F S512x512 .f32) (main_arg4 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S512x16 .f32 := Host.absf main_arg2
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S65536x512 : Shape := ⟨2, ![65536, 512]⟩
abbrev S512x16 : Shape := ⟨2, ![512, 16]⟩
abbrev S512x512 : Shape := ⟨2, ![512, 512]⟩
abbrev S512 : Shape := ⟨1, ![512]⟩
abbrev S16x512 : Shape := ⟨2, ![16, 512]⟩
abbrev S1024x512 : Shape := ⟨2, ![1024, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S512x16, .f32⟩
  | .hbm, ⟨2, _⟩ => ⟨S512x16, .f32⟩
  | .hbm, ⟨3, _⟩ => ⟨S512x512, .f32⟩
  | .hbm, ⟨4, _⟩ => ⟨S512, .f32⟩
  | .hbm, ⟨5, _⟩ => ⟨S16x512, .f32⟩
  | .hbm, ⟨6, _⟩ => ⟨S16x512, .f32⟩
  | .hbm, ⟨7, _⟩ => ⟨S65536x512, .f32⟩
  | .local _ .vmem, ⟨0, _⟩ => ⟨S1024x512, .f32⟩
  | .local _ .vmem, ⟨1, _⟩ => ⟨S1024x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512, .f32⟩
  | .local _ .vmem, ⟨6, _⟩ => ⟨S1024x512, .f32⟩
  | .local _ .vmem, ⟨7, _⟩ => ⟨S1024x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S512x16_S16x512_1_0 : S512x16.Transposes [1, 0] S16x512
  inb_S1024x512_S1024x512_0_0 : ∀ a, (![0, 0] : Fin 2 → Nat) a + S1024x512.size a ≤ S1024x512.size a
  h_S1024x512 : 0 < S1024x512.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  slices_S16x512_o0_0_S1x512 : S16x512.Slices ![0, 0] S1x512
  shapeCasts_S1x512_S512 : S1x512.ShapeCasts S512
  shapeCasts_S512_S1x512 : S512.ShapeCasts S1x512
  shapeCasts_S1x512_S1x512 : S1x512.ShapeCasts S1x512
  broadcasts_S1x512_S1024x512 : S1x512.Broadcasts S1024x512
  slices_S16x512_o1_0_S1x512 : S16x512.Slices ![1, 0] S1x512
  slices_S16x512_o2_0_S1x512 : S16x512.Slices ![2, 0] S1x512
  slices_S16x512_o3_0_S1x512 : S16x512.Slices ![3, 0] S1x512
  slices_S16x512_o4_0_S1x512 : S16x512.Slices ![4, 0] S1x512
  slices_S16x512_o5_0_S1x512 : S16x512.Slices ![5, 0] S1x512
  slices_S16x512_o6_0_S1x512 : S16x512.Slices ![6, 0] S1x512
  slices_S16x512_o7_0_S1x512 : S16x512.Slices ![7, 0] S1x512
  slices_S16x512_o8_0_S1x512 : S16x512.Slices ![8, 0] S1x512
  slices_S16x512_o9_0_S1x512 : S16x512.Slices ![9, 0] S1x512
  slices_S16x512_o10_0_S1x512 : S16x512.Slices ![10, 0] S1x512
  slices_S16x512_o11_0_S1x512 : S16x512.Slices ![11, 0] S1x512
  slices_S16x512_o12_0_S1x512 : S16x512.Slices ![12, 0] S1x512
  slices_S16x512_o13_0_S1x512 : S16x512.Slices ![13, 0] S1x512
  slices_S16x512_o14_0_S1x512 : S16x512.Slices ![14, 0] S1x512
  slices_S16x512_o15_0_S1x512 : S16x512.Slices ![15, 0] S1x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512_S512_0 : ∀ a, (![0] : Fin 1 → Nat) a + S512.size a ≤ S512.size a
  h_S512 : 0 < S512.numel
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S16x512.size a
  hwx0_1 : ∀ i : grid0.Coords, EltTy.bits .f32 = 32 ∨ (Rect.block (s := S16x512) S16x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x512.size a
  hwx0_2 : ∀ i : grid0.Coords, EltTy.bits .f32 = 32 ∨ (Rect.block (s := S16x512) S16x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S65536x512.size a
  hwx0_5 : ∀ i : grid0.Coords, EltTy.bits .f32 = 32 ∨ (Rect.block (s := S65536x512) S1024x512.size (cc0_transform_5 i) (hinb0_5 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x16 : Shape := ⟨2, ![512, 16]⟩
abbrev S512x512 : Shape := ⟨2, ![512, 512]⟩
abbrev S512 : Shape := ⟨1, ![512]⟩
abbrev S_ : Shape := ⟨0, ![]⟩
abbrev S1x512 : Shape := ⟨2, ![1, 512]⟩
abbrev S8192 : Shape := ⟨1, ![8192]⟩
abbrev S65536x512x1 : Shape := ⟨3, ![65536, 512, 1]⟩

abbrev nBuf : Space → Nat
  | .hbm => 69
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x16, .f32⟩
  | .hbm, ⟨2, _⟩ => ⟨S512x16, .f32⟩
  | .hbm, ⟨3, _⟩ => ⟨S512x512, .f32⟩
  | .hbm, ⟨4, _⟩ => ⟨S512, .f32⟩
  | .hbm, ⟨5, _⟩ => ⟨S_, .f32⟩
  | .hbm, ⟨6, _⟩ => ⟨S65536x512, .f32⟩
  | .hbm, ⟨7, _⟩ => ⟨S65536x512, .f32⟩
  | .hbm, ⟨8, _⟩ => ⟨S_, .f32⟩
  | .hbm, ⟨9, _⟩ => ⟨S65536x512, .f32⟩
  | .hbm, ⟨10, _⟩ => ⟨S65536x512, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S65536x512, .f32⟩
  | .hbm, ⟨15, _⟩ => ⟨S65536x512, .f32⟩
  | .hbm, ⟨16, _⟩ => ⟨S_, .f32⟩
  | .hbm, ⟨17, _⟩ => ⟨S65536x512, .f32⟩
  | .hbm, ⟨18, _⟩ => ⟨S65536x512, .f32⟩
  | .hbm, ⟨19, _⟩ => ⟨S_, .f32⟩
  | .hbm, ⟨20, _⟩ => ⟨S65536x512, .f32⟩
  | .hbm, ⟨21, _⟩ => ⟨S65536x512, .f32⟩
  | .hbm, ⟨22, _⟩ => ⟨S65536x512, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S65536x512, .i32⟩
  | .hbm, ⟨27, _⟩ => ⟨S65536x512, .i32⟩
  | .hbm, ⟨28, _⟩ => ⟨S_, .i32⟩
  | .hbm, ⟨29, _⟩ => ⟨S65536x512, .i32⟩
  | .hbm, ⟨30, _⟩ => ⟨S65536x512, .i32⟩
  | .hbm, ⟨31, _⟩ => ⟨S_, .f32⟩
  | .hbm, ⟨32, _⟩ => ⟨S65536x512, .f32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S512, .i32⟩
  | .hbm, ⟨37, _⟩ => ⟨S1x512, .i32⟩
  | .hbm, ⟨38, _⟩ => ⟨S_, .i32⟩
  | .hbm, ⟨39, _⟩ => ⟨S1x512, .i32⟩
  | .hbm, ⟨40, _⟩ => ⟨S1x512, .i32⟩
  | .hbm, ⟨41, _⟩ => ⟨S65536x512, .i32⟩
  | .hbm, ⟨42, _⟩ => ⟨S65536x512, .i32⟩
  | .hbm, ⟨43, _⟩ => ⟨S8192, .f32⟩
  | .hbm, ⟨44, _⟩ => ⟨S_, .i32⟩
  | .hbm, ⟨45, _⟩ => ⟨S65536x512, .i32⟩
  | .hbm, ⟨46, _⟩ => ⟨S65536x512, .i1⟩
  | .hbm, ⟨47, _⟩ => ⟨S_, .i32⟩
  | .hbm, ⟨48, _⟩ => ⟨S65536x512, .i32⟩
  | .hbm, ⟨49, _⟩ => ⟨S65536x512, .i32⟩
  | .hbm, ⟨50, _⟩ => ⟨S65536x512, .i32⟩
  | .hbm, ⟨51, _⟩ => ⟨S65536x512x1, .i32⟩
  | .hbm, ⟨52, _⟩ => ⟨S65536x512, .f32⟩
  | .hbm, ⟨53, _⟩ => ⟨S8192, .f32⟩
  | .hbm, ⟨54, _⟩ => ⟨S_, .i32⟩
  | .hbm, ⟨55, _⟩ => ⟨S65536x512, .i32⟩
  | .hbm, ⟨56, _⟩ => ⟨S65536x512, .i1⟩
  | .hbm, ⟨57, _⟩ => ⟨S_, .i32⟩
  | .hbm, ⟨58, _⟩ => ⟨S65536x512, .i32⟩
  | .hbm, ⟨59, _⟩ => ⟨S65536x512, .i32⟩
  | .hbm, ⟨60, _⟩ => ⟨S65536x512, .i32⟩
  | .hbm, ⟨61, _⟩ => ⟨S65536x512x1, .i32⟩
  | .hbm, ⟨62, _⟩ => ⟨S65536x512, .f32⟩
  | .hbm, ⟨63, _⟩ => ⟨S65536x512, .f32⟩
  | .hbm, ⟨64, _⟩ => ⟨S65536x512, .f32⟩
  | .hbm, ⟨65, _⟩ => ⟨S65536x512, .f32⟩
  | .hbm, ⟨66, _⟩ => ⟨S1x512, .f32⟩
  | .hbm, ⟨67, _⟩ => ⟨S65536x512, .f32⟩
  | .hbm, ⟨68, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_cst_3 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_c_4 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v8 : Ref sig .tc := ⟨.hbm, 30, rfl⟩
abbrev main_cst_5 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_6 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_7 : Ref sig .tc := ⟨.hbm, 44, rfl⟩
abbrev main_v20 : Ref sig .tc := ⟨.hbm, 45, rfl⟩
abbrev main_v21 : Ref sig .tc := ⟨.hbm, 46, rfl⟩
abbrev main_c_8 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_9 : Ref sig .tc := ⟨.hbm, 54, rfl⟩
abbrev main_v28 : Ref sig .tc := ⟨.hbm, 55, rfl⟩
abbrev main_v29 : Ref sig .tc := ⟨.hbm, 56, rfl⟩
abbrev main_c_10 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩

abbrev nD : Nat := 1
abbrev τ : Topo := Topo.v7x

variable {F : FTy → Type} [FloatOps F]

class Facts₀ : Prop where
  bcast_S_S65536x512 : S_.BroadcastsInDim S65536x512 (![] : Fin 0 → Fin S65536x512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S65536x512_0_1 : S1x512.BroadcastsInDim S65536x512 (![0, 1] : Fin 2 → Fin S65536x512.rank)
  shapeCasts_S512x16_S8192 : S512x16.ShapeCasts S8192
  bcast_S65536x512_S65536x512x1_0_1 : S65536x512.BroadcastsInDim S65536x512x1 (![0, 1] : Fin 2 → Fin S65536x512x1.rank)
  gather_S8192_S65536x512x1_S65536x512_n_0_n_n_0_2_1_wf : GatherDims.WF S8192 S65536x512x1 S65536x512 [] [0] [] [0] [] 2 ![1]
  dot_S65536x512_S512x512_S65536x512_1_1_0_0_n_n_wf : DotDims.WF S65536x512 S512x512 S65536x512 [1] [1] [0] [0] [] []

variable [Facts₀]

def gather_S8192_S65536x512x1_S65536x512_n_0_n_n_0_2_1 : GatherDims S8192 S65536x512x1 S65536x512 where
  offsetDims := []
  collapsedSliceDims := [0]
  operandBatchingDims := []
  startIndicesBatchingDims := []
  startIndexMap := [0]
  indexVectorDim := 2
  sliceSizes := ![1]
  wf := gather_S8192_S65536x512x1_S65536x512_n_0_n_n_0_2_1_wf
def dot_S65536x512_S512x512_S65536x512_1_1_0_0_n_n : DotDims S65536x512 S512x512 S65536x512 where
  lhsContracting := [1]
  rhsContracting := [1]
  lhsNonContracting := [0]
  rhsNonContracting := [0]
  lhsBatch := []
  rhsBatch := []
  wf := dot_S65536x512_S512x512_S65536x512_1_1_0_0_n_n_wf

class Facts : Prop extends Facts₀ where

variable [Facts]
-- ==== Proof.Spline.lean ====
/-
  The function both programs compute, on the extended reals.

  A learned piecewise-linear activation per input feature, followed by a linear mixing layer.  For a feature value
  `x` the interval [-1, 1) is cut into 16 equal cells: `pos x = clip((x + 1) / 2, 0, 1 - 1e-6) · 16` is the position
  of `x` measured in cells, `cell x` the cell it falls in (the integer part of `pos x`, kept inside 0 … 15) and
  `frac x = pos x - cell x` how far into the cell it lies.  Feature `d` has a table of 16 base values and 16 slopes;
  its activation is `base[d, cell] + slope[d, cell] · frac`.  Row `r` of the result is the activations of row `r` of
  the input mixed by the matrix `M` (entry `(r, o)` sums the activations against row `o` of `M`) plus a bias.

  Everything is stated with the literal words the two programs carry (-1, 2, 0, 0.999998986, 16 as f32 patterns), so
  neither side ever evaluates them.
-/
import Idealize.ShloMosaic.PureOps.Ideal
import Idealize.ShloMosaic.Lib.ValueIdx

noncomputable section

namespace Cert.Spline

open Idealize.ShloMosaic Idealize.ShloMosaic.ValueIdx

/-- The position of `x` in the grid, in cells: `clip((x - (-1)) / 2, 0, 0.999998986) · 16`. -/
def pos (x : EReal) : EReal :=
  min (Ideal.ofBits .f32 0x3F7FFFEF#32)
      (max (Ideal.ofBits .f32 0x00000000#32)
        (Ideal.div (x - Ideal.ofBits .f32 0xBF800000#32) (Ideal.ofBits .f32 0x40000000#32)))
    * Ideal.ofBits .f32 0x41800000#32

/-- The cell of `x`: the integer part of its position as a 32-bit word, kept between 0 and 15. -/
def cell (x : EReal) : BitVec 32 := IntOp.minsi 15#32 (IntOp.maxsi 0#32 (Ideal.fptosi 32 (pos x)))

/-- How far into its cell `x` lies. -/
def frac (x : EReal) : EReal := pos x - (((cell x).toInt : ℝ) : EReal)

/-- A 32-bit word kept between 0 and 15 (signed) is, unsigned, below 16. -/
theorem clamp_lt (v : BitVec 32) : (IntOp.minsi 15#32 (IntOp.maxsi 0#32 v)).toNat < 16 := by
  unfold IntOp.minsi IntOp.maxsi
  by_cases h2 : v.slt 0#32 = true
  · rw [if_pos h2]; decide
  · rw [if_neg h2]
    by_cases h1 : (15#32 : BitVec 32).slt v = true
    · rw [if_pos h1]; decide
    · rw [if_neg h1]
      simp only [BitVec.slt, decide_eq_true_eq, not_lt] at h1 h2
      have e := BitVec.toInt_eq_toNat_cond v
      have hv := v.isLt
      have h15 : (15#32 : BitVec 32).toInt = 15 := by decide
      have h0 : (0#32 : BitVec 32).toInt = 0 := by decide
      rw [h15] at h1; rw [h0] at h2
      split at e <;> omega

/-- The cell of `x` as an index into a feature's 16 table entries. -/
def cellIx (x : EReal) : Fin 16 := ⟨(cell x).toNat, clamp_lt _⟩

/-- One feature's activation: the cell's base value plus its slope times the position inside the cell. -/
def spline (x : EReal) (b s : Fin 16 → EReal) : EReal := b (cellIx x) + s (cellIx x) * frac x

/-- One entry of the result: a row of 512 feature values `xrow`, each feature's tables `b d`, `s d`, one row
    `mrow` of the mixing matrix and its bias. -/
def rowOut (xrow : Fin 512 → EReal) (b s : Fin 512 → Fin 16 → EReal) (mrow : Fin 512 → EReal) (bias : EReal) : EReal :=
  (∑ d : Fin 512, spline (xrow d) (b d) (s d) * mrow d) + bias

/-- Entry `(r, o)` of the layer on the whole arrays: `X : [65536, 512]`, tables `B S : [512, 16]` (feature, cell),
    `M : [512, 512]` (output, feature), `bias : [512]`. -/
def entry (X : (⟨2, ![65536, 512]⟩ : Shape).Idx → EReal) (B S : (⟨2, ![512, 16]⟩ : Shape).Idx → EReal)
    (M : (⟨2, ![512, 512]⟩ : Shape).Idx → EReal) (bias : (⟨1, ![512]⟩ : Shape).Idx → EReal)
    (r : Fin 65536) (o : Fin 512) : EReal :=
  rowOut (fun d => X (ix2 r d)) (fun d g => B (ix2 d g)) (fun d g => S (ix2 d g)) (fun d => M (ix2 o d)) (bias (ix1 o))

/-- The layer as one function of the argument arrays, index by index. -/
def G (X : (⟨2, ![65536, 512]⟩ : Shape).Idx → EReal) (B S : (⟨2, ![512, 16]⟩ : Shape).Idx → EReal)
    (M : (⟨2, ![512, 512]⟩ : Shape).Idx → EReal) (bias : (⟨1, ![512]⟩ : Shape).Idx → EReal) :
    (⟨2, ![65536, 512]⟩ : Shape).Idx → EReal :=
  fun i => entry X B S M bias (i 0) (i 1)

/-- The layer at the index `(r, o)` is its entry there. -/
theorem G_ix2 (X : (⟨2, ![65536, 512]⟩ : Shape).Idx → EReal) (B S : (⟨2, ![512, 16]⟩ : Shape).Idx → EReal)
    (M : (⟨2, ![512, 512]⟩ : Shape).Idx → EReal) (bias : (⟨1, ![512]⟩ : Shape).Idx → EReal)
    (r : Fin 65536) (o : Fin 512) : G X B S M bias (ix2 r o) = entry X B S M bias r o := rfl

end Cert.Spline

end
-- ==== Proof.LibSelectChain.lean ====
/-
  A chain of selects on "the word equals g", g = 0, 1, …, n - 1, read as a table lookup.

  `where(c == n-1, T (n-1), … where(c == 1, T 1, where(c == 0, T 0, z)) …)` is how a gather from an `n`-entry table is
  spelt when the table is small and the index is a vector of 32-bit words: one compare-and-select per entry, each
  keeping the previous result where the compare fails.  When the word is below `n` exactly one compare succeeds, so
  the chain is the entry the word names; when it is `n` or more none does and the default survives.
-/
import Idealize.ShloMosaic.PureOps.Float
import Idealize.ShloMosaic.Lib.ValueIdx

namespace Cert.Lib

open Idealize.ShloMosaic

/-- The chain of `n` selects over the default `z`: entry `g` is chosen where the word `c` equals `g`; the select for
    the largest `g` is outermost. -/
def selectChain {α : Type} (c : BitVec 32) (T : Nat → α) (z : α) : Nat → α
  | 0 => z
  | n + 1 => Scalar.select (IntOp.cmpi .eq c (BitVec.ofNat 32 n)) (T n) (selectChain c T z n)

/-- The compare bit of two words: set exactly when they are equal. -/
theorem cmpi_eq_of_eq (x y : BitVec 32) (h : x = y) : IntOp.cmpi .eq x y = 1#1 := by
  subst h; simp [IntOp.cmpi]

theorem cmpi_eq_of_ne (x y : BitVec 32) (h : x ≠ y) : IntOp.cmpi .eq x y = 0#1 := by
  have : (x == y) = false := by simpa using h
  simp [IntOp.cmpi, this]

/-- A word at or beyond the chain's length meets no compare: the default survives. -/
theorem selectChain_default {α : Type} (c : BitVec 32) (T : Nat → α) (z : α) (n : Nat) (hn : n ≤ 2 ^ 32)
    (hc : n ≤ c.toNat) : selectChain c T z n = z := by
  induction n with
  | zero => rfl
  | succ k ih =>
    have hne : c ≠ BitVec.ofNat 32 k := by
      intro h
      have := congrArg BitVec.toNat h
      rw [BitVec.toNat_ofNat, Nat.mod_eq_of_lt (by omega)] at this
      omega
    show Scalar.select (IntOp.cmpi .eq c (BitVec.ofNat 32 k)) (T k) (selectChain c T z k) = z
    rw [cmpi_eq_of_ne _ _ hne, ValueIdx.select_zero]
    exact ih (by omega) (by omega)

/-- A word below the chain's length picks its own entry. -/
theorem selectChain_eq {α : Type} (c : BitVec 32) (T : Nat → α) (z : α) (n : Nat) (hn : n ≤ 2 ^ 32)
    (hc : c.toNat < n) : selectChain c T z n = T c.toNat := by
  induction n with
  | zero => omega
  | succ k ih =>
    show Scalar.select (IntOp.cmpi .eq c (BitVec.ofNat 32 k)) (T k) (selectChain c T z k) = T c.toNat
    by_cases hk : c.toNat = k
    · have he : c = BitVec.ofNat 32 k := by
        apply BitVec.eq_of_toNat_eq
        rw [BitVec.toNat_ofNat, Nat.mod_eq_of_lt (by omega)]
        exact hk
      rw [cmpi_eq_of_eq _ _ he, ValueIdx.select_one, hk]
    · have hne : c ≠ BitVec.ofNat 32 k := by
        intro h
        have := congrArg BitVec.toNat h
        rw [BitVec.toNat_ofNat, Nat.mod_eq_of_lt (by omega)] at this
        exact hk this
      rw [cmpi_eq_of_ne _ _ hne, ValueIdx.select_zero]
      exact ih (by omega) (by omega)

/-- The sixteen-entry chain as the programs spell it — the literal words 0 … 15, entry 15 outermost — over a table
    indexed by `Fin 16`: a word below 16 picks its entry. -/
theorem select16 {α : Type} (c : BitVec 32) (hc : c.toNat < 16) (R : Fin 16 → α) (z : α) :
    Scalar.select (IntOp.cmpi .eq c 15#32) (R 15) (Scalar.select (IntOp.cmpi .eq c 14#32) (R 14)
    (Scalar.select (IntOp.cmpi .eq c 13#32) (R 13) (Scalar.select (IntOp.cmpi .eq c 12#32) (R 12)
    (Scalar.select (IntOp.cmpi .eq c 11#32) (R 11) (Scalar.select (IntOp.cmpi .eq c 10#32) (R 10)
    (Scalar.select (IntOp.cmpi .eq c 9#32) (R 9) (Scalar.select (IntOp.cmpi .eq c 8#32) (R 8)
    (Scalar.select (IntOp.cmpi .eq c 7#32) (R 7) (Scalar.select (IntOp.cmpi .eq c 6#32) (R 6)
    (Scalar.select (IntOp.cmpi .eq c 5#32) (R 5) (Scalar.select (IntOp.cmpi .eq c 4#32) (R 4)
    (Scalar.select (IntOp.cmpi .eq c 3#32) (R 3) (Scalar.select (IntOp.cmpi .eq c 2#32) (R 2)
    (Scalar.select (IntOp.cmpi .eq c 1#32) (R 1) (Scalar.select (IntOp.cmpi .eq c 0#32) (R 0) z)))))))))))))))
      = R ⟨c.toNat, hc⟩ := by
  have h := selectChain_eq c (fun g => if h : g < 16 then R ⟨g, h⟩ else z) z 16 (by decide) hc
  rw [dif_pos hc] at h
  exact h

end Cert.Lib
-- ==== Proof.KernelAct.lean ====
/-
  The activation array inside the kernel body.

  The body holds a block `x0 : [1024, 512]` of feature values and the two tables transposed, `x1` (bases) and `x2`
  (slopes), both `[16, 512]` = (cell, feature).  From `x0` it computes, entry by entry, the cell word and the position
  inside the cell.  It then reads both tables by a chain of sixteen compare-and-selects: starting from zero, for
  g = 0, …, 15 it puts row `g` of the table (laid over all 1024 rows) wherever the cell word equals `g`.  The cell word
  being between 0 and 15, at `(p, d)` the chain is the table's entry (cell, d).  The activation is
  base + slope · (position inside the cell): at `(p, d)` the spline of the feature value against column `d` of the two
  tables.  The rest of the body — rounding to bf16, the product with the mixing matrix, the bias — is left as it is.
-/
import proofs.«151163_j51934744543447_1_alg».proof.Proof.Gen.KernelIdeal.Frame
import proofs.«151163_j51934744543447_1_alg».proof.Proof.Spline
import proofs.«151163_j51934744543447_1_alg».proof.Proof.LibSelectChain
import Idealize.ShloMosaic.Lib.ValueIdx
import Idealize.ShloMosaic.Lib.ValueLayout
import Idealize.ShloMosaic.Lib.Pipeline.Value
import Idealize.ShloMosaic.PureOps.Ideal

noncomputable section

namespace Cert.KernelIdeal.Act

open Cert.KernelIdeal Cert.KernelIdeal.Gen Idealize.ShloMosaic Idealize.ShloMosaic.ValueIdx

/-- Row `G` of a `[16, 512]` table laid over all 1024 rows: the row is cut out, flattened to a `[512]` vector,
    given its unit axis back and broadcast. -/
def rowB (T : FVec Ideal S16x512 .f32) (G : Nat) (hs : S16x512.Slices ![G, 0] S1x512) : FVec Ideal S1024x512 .f32 :=
  broadcastTo S1024x512
    (shapeCast S1x512
      (shapeCast S1x512
        (shapeCast S512 (extractStridedSlice S1x512 ![G, 0] T hs) shapeCasts_S1x512_S512)
        shapeCasts_S512_S1x512)
      shapeCasts_S1x512_S1x512)
    broadcasts_S1x512_S1024x512

/-- The mask "the cell word equals `g`" over the block. -/
def isCell (c : IVec S1024x512 32) (g : BitVec 32) : IVec S1024x512 1 := cmpi .eq c (broadcast S1024x512 g)

/-- The sixteen-way chain over a table: zero, then for g = 0 … 15 row `g` wherever the cell word is `g`. -/
def chain (c : IVec S1024x512 32) (T : FVec Ideal S16x512 .f32) : FVec Ideal S1024x512 .f32 :=
  select (isCell c 15#32) (rowB T 15 slices_S16x512_o15_0_S1x512)
  (select (isCell c 14#32) (rowB T 14 slices_S16x512_o14_0_S1x512)
  (select (isCell c 13#32) (rowB T 13 slices_S16x512_o13_0_S1x512)
  (select (isCell c 12#32) (rowB T 12 slices_S16x512_o12_0_S1x512)
  (select (isCell c 11#32) (rowB T 11 slices_S16x512_o11_0_S1x512)
  (select (isCell c 10#32) (rowB T 10 slices_S16x512_o10_0_S1x512)
  (select (isCell c 9#32) (rowB T 9 slices_S16x512_o9_0_S1x512)
  (select (isCell c 8#32) (rowB T 8 slices_S16x512_o8_0_S1x512)
  (select (isCell c 7#32) (rowB T 7 slices_S16x512_o7_0_S1x512)
  (select (isCell c 6#32) (rowB T 6 slices_S16x512_o6_0_S1x512)
  (select (isCell c 5#32) (rowB T 5 slices_S16x512_o5_0_S1x512)
  (select (isCell c 4#32) (rowB T 4 slices_S16x512_o4_0_S1x512)
  (select (isCell c 3#32) (rowB T 3 slices_S16x512_o3_0_S1x512)
  (select (isCell c 2#32) (rowB T 2 slices_S16x512_o2_0_S1x512)
  (select (isCell c 1#32) (rowB T 1 slices_S16x512_o1_0_S1x512)
  (select (isCell c 0#32) (rowB T 0 slices_S16x512_o0_0_S1x512)
    (broadcast S1024x512 (Scalar.ofBits .f32 0x00000000#32)))))))))))))))))

/-- The activation array of a block: base plus slope times the position inside the cell, the base and the slope
    read from the two transposed tables by the sixteen-way chain on the cell word. -/
def act (x0 : Vec Ideal S1024x512 .f32) (x1 x2 : Vec Ideal S16x512 .f32) : FVec Ideal S1024x512 .f32 :=
  addf (chain (k0_pay2 x0) (k0_pay4 x1)) (mulf (chain (k0_pay2 x0) (k0_pay5 x2)) (k0_pay3 x0))

/-- A row of the table laid over the block reads, at `(p, d)`, the table at `(G, d)`. -/
theorem rowB_apply (T : FVec Ideal S16x512 .f32) (G : Nat) (hs : S16x512.Slices ![G, 0] S1x512) (hG : G < 16)
    (p : Fin 1024) (d : Fin 512) : rowB T G hs (ix2 p d) = T (ix2 (⟨G, hG⟩ : Fin 16) d) := by
  unfold rowB
  refine (broadcastTo_1b_ab_apply _ _ p d).trans ?_
  rw [shapeCast_self]
  refine (shapeCast_a_1a_apply _ _ (0 : Fin 1) d).trans ?_
  refine (shapeCast_1a_a_apply _ _ d).trans ?_
  exact slice2_axis0_apply G T hs (0 : Fin 1) d ⟨G, hG⟩ (by simp)

/-- The cell word of the block at `(p, d)` is the cell of the feature value there. -/
theorem cell_apply (x0 : Vec Ideal S1024x512 .f32) (p : Fin 1024) (d : Fin 512) :
    k0_pay2 x0 (ix2 p d) = Cert.Spline.cell (x0 (ix2 p d)) := rfl

/-- The block's third intermediate at `(p, d)` is how far into its cell the feature value lies. -/
theorem frac_apply (x0 : Vec Ideal S1024x512 .f32) (p : Fin 1024) (d : Fin 512) :
    k0_pay3 x0 (ix2 p d) = Cert.Spline.frac (x0 (ix2 p d)) := rfl

/-- A select between equal branches' replacements. -/
theorem select_congr {α : Type} {c : BitVec 1} {a a' b b' : α} (ha : a = a') (hb : b = b') :
    Scalar.select c a b = Scalar.select c a' b' := by rw [ha, hb]

/-- The chain at `(p, d)`, the cell word there below 16: the table's entry the word names, in column `d`. -/
theorem chain_apply (c : IVec S1024x512 32) (T : FVec Ideal S16x512 .f32) (p : Fin 1024) (d : Fin 512)
    (hc : (c (ix2 p d)).toNat < 16) : chain c T (ix2 p d) = T (ix2 (⟨(c (ix2 p d)).toNat, hc⟩ : Fin 16) d) := by
  refine Eq.trans ?_ (Cert.Lib.select16 (c (ix2 p d)) hc (fun g => T (ix2 g d)) (Scalar.ofBits .f32 0x00000000#32))
  exact (select_congr (rowB_apply T 15 slices_S16x512_o15_0_S1x512 (by decide) p d)
    (select_congr (rowB_apply T 14 slices_S16x512_o14_0_S1x512 (by decide) p d)
    (select_congr (rowB_apply T 13 slices_S16x512_o13_0_S1x512 (by decide) p d)
    (select_congr (rowB_apply T 12 slices_S16x512_o12_0_S1x512 (by decide) p d)
    (select_congr (rowB_apply T 11 slices_S16x512_o11_0_S1x512 (by decide) p d)
    (select_congr (rowB_apply T 10 slices_S16x512_o10_0_S1x512 (by decide) p d)
    (select_congr (rowB_apply T 9 slices_S16x512_o9_0_S1x512 (by decide) p d)
    (select_congr (rowB_apply T 8 slices_S16x512_o8_0_S1x512 (by decide) p d)
    (select_congr (rowB_apply T 7 slices_S16x512_o7_0_S1x512 (by decide) p d)
    (select_congr (rowB_apply T 6 slices_S16x512_o6_0_S1x512 (by decide) p d)
    (select_congr (rowB_apply T 5 slices_S16x512_o5_0_S1x512 (by decide) p d)
    (select_congr (rowB_apply T 4 slices_S16x512_o4_0_S1x512 (by decide) p d)
    (select_congr (rowB_apply T 3 slices_S16x512_o3_0_S1x512 (by decide) p d)
    (select_congr (rowB_apply T 2 slices_S16x512_o2_0_S1x512 (by decide) p d)
    (select_congr (rowB_apply T 1 slices_S16x512_o1_0_S1x512 (by decide) p d)
    (select_congr (rowB_apply T 0 slices_S16x512_o0_0_S1x512 (by decide) p d)
    rfl))))))))))))))))

/-- What the body leaves in the output block: the activation array rounded to bf16, multiplied into a zero
    accumulator against the mixing matrix (rounded likewise), plus the bias laid over the rows.  The whole-block loads
    read their arrays and the one whole-block store leaves its value; the value is the activation followed by those
    steps, by unfolding. -/
theorem payload_eq (x0 : Vec Ideal S1024x512 .f32) (x1 x2 : Vec Ideal S16x512 .f32) (x3 : Vec Ideal S512x512 .f32) (x4 : Vec Ideal S512 .f32) :
    out0_5 (F := Ideal) x0 x1 x2 x3 x4
      = addf (matmul dot_S1024x512_S512x512_S1024x512_1_1_0_0_n_n none
                (truncf .bf16 (act x0 x1 x2) bitsLt_bf16_f32) (truncf .bf16 (x3 : FVec Ideal S512x512 .f32) bitsLt_bf16_f32)
                (constant S1024x512 .f32 0x00000000#32))
             (broadcastTo S1024x512 (shapeCast S1x512 (shapeCast S1x512 (x4 : FVec Ideal S512 .f32) shapeCasts_S512_S1x512) shapeCasts_S1x512_S1x512) broadcasts_S1x512_S1024x512) := by
  have hz : (![0, 0] : Fin 2 → Nat) = fun _ => 0 := by funext a; fin_cases a <;> rfl
  have hz1 : (![0] : Fin 1 → Nat) = fun _ => 0 := by funext a; fin_cases a; rfl
  unfold out0_5
  rw [View.canon_unit_zero hz]
  rw [View.ld_unit_zero (S := S1024x512) hz, View.ld_unit_zero (S := S16x512) hz, View.ld_unit_zero (S := S16x512) hz,
    View.ld_unit_zero (S := S512x512) hz, View.ld_unit_zero (S := S512) hz1]
  rfl

/-- The activation at `(p, d)`: the spline of the feature value there against column `d` of the two tables.  Both
    chains pick the entry the cell word names, and the position inside the cell is the spline's. -/
theorem act_apply (x0 : Vec Ideal S1024x512 .f32) (x1 x2 : Vec Ideal S16x512 .f32) (p : Fin 1024) (d : Fin 512) :
    act x0 x1 x2 (ix2 p d) = Cert.Spline.spline (x0 (ix2 p d)) (fun g => x1 (ix2 g d)) (fun g => x2 (ix2 g d)) := by
  have hc : (k0_pay2 x0 (ix2 p d)).toNat < 16 := Cert.Spline.clamp_lt _
  have hb := chain_apply (k0_pay2 x0) (k0_pay4 x1) p d hc
  have hs := chain_apply (k0_pay2 x0) (k0_pay5 x2) p d hc
  have e4 : k0_pay4 x1 = x1 := shapeCast_self _ _
  have e5 : k0_pay5 x2 = x2 := shapeCast_self _ _
  rw [e4] at hb
  rw [e5] at hs
  show (chain (k0_pay2 x0) (k0_pay4 x1) (ix2 p d) : EReal) + chain (k0_pay2 x0) (k0_pay5 x2) (ix2 p d) * k0_pay3 x0 (ix2 p d) = _
  rw [e4, e5, hb, hs]
  rfl

end Cert.KernelIdeal.Act

end
-- ==== Proof.KernelRow.lean ====
import proofs.«151163_j51934744543447_1_alg».proof.Proof.KernelAct
import Idealize.ShloMosaic.PureOps.Ideal.Laws
import Idealize.ShloMosaic.Lib.ValueLayout
import Idealize.ShloMosaic.Lib.Pipeline.Value

/-
  One entry of what the kernel body stores.

  After the activation `A : [1024, 512]` the body multiplies `A` by the mixing matrix `W : [512, 512]`
  (output, feature), contracting axis 1 of both, into a zero accumulator, and adds the bias `[512]` laid out as a
  `[1, 512]` row repeated down the 1024 rows.  Rounding to bf16 is the identity on the extended reals.  So entry
  `(p, q)` is `(∑ d, A (p, d) · W (q, d)) + bias q`, which is the specification's `rowOut` once `A (p, d)` is read
  as the activation of feature `d`.
-/

noncomputable section

namespace Cert.KernelIdeal.Row

open Cert.KernelIdeal Cert.KernelIdeal.Gen Idealize.ShloMosaic Idealize.ShloMosaic.ValueIdx

/-- The product's dimension record: axis 1 of each operand is contracted, axis 0 of each is kept. -/
abbrev mixDims := dot_S1024x512_S512x512_S1024x512_1_1_0_0_n_n

/-- The left operand is read in the output's row … -/
theorem lhs_0 (i : S1024x512.Idx) (k : mixDims.contr.Idx) : (mixDims.lhsIdx i k 0).val = (i 0).val := by
  unfold DotDims.lhsIdx
  rw [dif_neg (show ¬(0 : Fin S1024x512.rank) ∈ mixDims.lhsBatch by decide),
    dif_pos (show (0 : Fin S1024x512.rank) ∈ mixDims.lhsNonContracting by decide)]
  rfl

/-- … at the contraction index. -/
theorem lhs_1 (i : S1024x512.Idx) (k : mixDims.contr.Idx) : (mixDims.lhsIdx i k 1).val = (k ⟨0, by decide⟩).val :=
  mixDims.lhsIdx_val_of_single rfl i k

/-- The right operand is read in the row numbered by the output's column … -/
theorem rhs_0 (i : S1024x512.Idx) (k : mixDims.contr.Idx) : (mixDims.rhsIdx i k 0).val = (i 1).val := by
  unfold DotDims.rhsIdx
  rw [dif_neg (show ¬(0 : Fin S512x512.rank) ∈ mixDims.rhsBatch by decide),
    dif_pos (show (0 : Fin S512x512.rank) ∈ mixDims.rhsNonContracting by decide)]
  rfl

/-- … at the contraction index. -/
theorem rhs_1 (i : S1024x512.Idx) (k : mixDims.contr.Idx) : (mixDims.rhsIdx i k 1).val = (k ⟨0, by decide⟩).val :=
  mixDims.rhsIdx_val_of_single rfl i k

/-- The product into the zero accumulator, at `(p, q)`: row `p` of the left operand against row `q` of the right. -/
theorem matmul_entry (A : FVec Ideal S1024x512 .bf16) (W : FVec Ideal S512x512 .bf16) (p : Fin 1024) (q : Fin 512) :
    (matmul mixDims none A W (constant S1024x512 .f32 0x00000000#32)) (ix2 p q)
      = ∑ d : Fin 512, A (ix2 p d) * W (ix2 q d) := by
  simp only [matmul]
  rw [Ideal.matmul_constant_zero_apply, ← Equiv.sum_comp (ValueIdx.contrEquiv1 mixDims 512 rfl rfl).symm]
  refine Finset.sum_congr rfl fun k _ => ?_
  have hk := ValueIdx.contrEquiv1_symm_val mixDims 512 rfl rfl k
  have el : mixDims.lhsIdx (ix2 p q) ((ValueIdx.contrEquiv1 mixDims 512 rfl rfl).symm k) = ix2 p k :=
    funext fun a => Fin.ext (by
      match a with
      | ⟨0, _⟩ => exact lhs_0 _ _
      | ⟨1, _⟩ => exact (lhs_1 _ _).trans hk)
  have er : mixDims.rhsIdx (ix2 p q) ((ValueIdx.contrEquiv1 mixDims 512 rfl rfl).symm k) = ix2 q k :=
    funext fun a => Fin.ext (by
      match a with
      | ⟨0, _⟩ => exact rhs_0 _ _
      | ⟨1, _⟩ => exact (rhs_1 _ _).trans hk)
  rw [el, er]

/-- The bias laid out as one row and repeated down the rows reads, at `(p, q)`, the bias at `q`. -/
theorem bias_entry (b : FVec Ideal S512 .f32) (p : Fin 1024) (q : Fin 512) :
    (broadcastTo S1024x512 (shapeCast S1x512 (shapeCast S1x512 b shapeCasts_S512_S1x512) shapeCasts_S1x512_S1x512)
      broadcasts_S1x512_S1024x512) (ix2 p q) = b (ix1 q) := by
  rw [shapeCast_self]
  refine (broadcastTo_1b_ab_apply _ broadcasts_S1x512_S1024x512 p q).trans ?_
  exact shapeCast_a_1a_apply b shapeCasts_S512_S1x512 0 q

/-- Entry `(p, q)` of the mixing layer on any activation `A`, matrix `W` and bias `b`:
    `(∑ d, A (p, d) · W (q, d)) + b q`. -/
theorem body_entry (A : FVec Ideal S1024x512 .f32) (W : FVec Ideal S512x512 .f32) (b : FVec Ideal S512 .f32)
    (p : Fin 1024) (q : Fin 512) :
    (addf (matmul mixDims none (truncf .bf16 A bitsLt_bf16_f32) (truncf .bf16 W bitsLt_bf16_f32)
        (constant S1024x512 .f32 0x00000000#32))
      (broadcastTo S1024x512 (shapeCast S1x512 (shapeCast S1x512 b shapeCasts_S512_S1x512) shapeCasts_S1x512_S1x512)
        broadcasts_S1x512_S1024x512)) (ix2 p q)
      = (∑ d : Fin 512, A (ix2 p d) * W (ix2 q d)) + b (ix1 q) := by
  rw [addf_apply, matmul_entry, bias_entry]
  rfl

/-- Entry `(p, q)` of the block the body stores: the specification's entry for row `p` of the input block, column `d`
    of the two transposed tables as feature `d`'s tables, row `q` of the mixing matrix and the bias at `q`. -/
theorem out_apply (x0 : Vec Ideal S1024x512 .f32) (x1 x2 : Vec Ideal S16x512 .f32) (x3 : Vec Ideal S512x512 .f32) (x4 : Vec Ideal S512 .f32)
    (p : Fin 1024) (q : Fin 512) :
    out0_5 (F := Ideal) x0 x1 x2 x3 x4 (ix2 p q)
      = Cert.Spline.rowOut (fun d => x0 (ix2 p d)) (fun d g => x1 (ix2 g d)) (fun d g => x2 (ix2 g d)) (fun d => x3 (ix2 q d)) (x4 (ix1 q)) := by
  rw [Cert.KernelIdeal.Act.payload_eq]
  refine (body_entry (Cert.KernelIdeal.Act.act x0 x1 x2) x3 x4 p q).trans ?_
  unfold Cert.Spline.rowOut
  refine congrArg (· + x4 (ix1 q)) (Finset.sum_congr rfl fun d _ => ?_)
  rw [Cert.KernelIdeal.Act.act_apply]

end Cert.KernelIdeal.Row

end
-- ==== Proof.KernelValue.lean ====
/-
  From what each grid point writes back to the whole result array, and the kernel program's run with its result named.

  The program first transposes the two [512, 16] tables (feature, cell) into [16, 512] (cell, feature), then runs over a
  grid of 64 points.  Point t reads rows 1024·t … 1024·t + 1023 of the input, the whole of the two transposed tables, of the
  mixing matrix and of the bias, and writes back rows 1024·t … 1024·t + 1023 of the result.  Row p of what point t computes
  is the layer's row of row 1024·t + p of the input: the transposed tables read at (cell, feature) are the arguments read
  at (feature, cell), so entry (1024·t + p, q) of the result is `Cert.Spline.entry` of the argument arrays there.  The 64
  row blocks cover the result (row r lies in the block of point r / 1024), so the result array ends holding the layer of
  the argument arrays, `Cert.Spline.G`.
-/
import proofs.«151163_j51934744543447_1_alg».proof.Proof.Gen.KernelIdeal.Value
import proofs.«151163_j51934744543447_1_alg».proof.Proof.KernelRow
import Idealize.ShloMosaic.Lib.ValueLayout
import Idealize.ShloMosaic.Lib.Tactic

noncomputable section

namespace Cert.KernelIdeal.Whole

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- The layer of the launch memory's argument arrays. -/
def GG (c : Dev nD) : Buf (Elt Ideal) ((c : Thread nD τ).loc main_v2) :=
  Cert.Spline.G (m ((c : Thread nD τ).loc main_arg0)) (m ((c : Thread nD τ).loc main_arg1)) (m ((c : Thread nD τ).loc main_arg2))
    (m ((c : Thread nD τ).loc main_arg3)) (m ((c : Thread nD τ).loc main_arg4))

/-! ## The blocks' places in their arrays -/

/-- The block indices at point t, decided over the 64 points: the input's and the result's block is row block t, every other
    window's is its whole array. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The two tables as the host leaves them -/

/-- The first table the grid reads is the second argument transposed. -/
theorem table1 (c : Dev nD) : (V m c main_v0 : S16x512.Idx → EReal) = transpose S16x512 [1, 0] (m ((c : Thread nD τ).loc main_arg1)) transposes_S512x16_S16x512_1_0 := by
  dsimp only [Gen.V, Gen.hostOps0]; after_results

/-- The second table the grid reads is the third argument transposed. -/
theorem table2 (c : Dev nD) : (V m c main_v1 : S16x512.Idx → EReal) = transpose S16x512 [1, 0] (m ((c : Thread nD τ).loc main_arg2)) transposes_S512x16_S16x512_1_0 := by
  dsimp only [Gen.V, Gen.hostOps0]; after_results

/-! ## Each window's block at a point, read off the argument arrays -/

/-- Window 0's block at point t is rows 1024·t … 1024·t + 1023 of the first argument. -/
theorem rows_read (c : Dev nD) (t : Fin cfg0.N) (p : Fin 1024) (d : Fin 512) (r : Fin 65536) (hr : r.val = 1024 * t.val + p.val) :
    (iblk m c 0 t : Vec Ideal S1024x512 .f32) (ix2 p d) = (m ((c : Thread nD τ).loc main_arg0) : S65536x512.Idx → EReal) (ix2 r d) := by
  obtain ⟨e0, e1, -⟩ := block_index t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = r.val; omega
  | ⟨1, _⟩ => show win0_0.index t (1 : Fin 2) * 512 + 1 * d.val = d.val; omega

/-- Window 1's one block is the whole first table, which the host wrote as the transpose of the second argument. -/
theorem base_read (c : Dev nD) (t : Fin cfg0.N) (g : Fin 16) (d : Fin 512) :
    (iblk m c 1 t : Vec Ideal S16x512 .f32) (ix2 g d) = (m ((c : Thread nD τ).loc main_arg1) : S512x16.Idx → EReal) (ix2 d g) := by
  obtain ⟨-, -, e0, e1, -⟩ := block_index t
  unfold iblk
  rw [View.read_apply]
  show V m c main_v0 _ = _
  rw [table1]
  refine (congrArg _ (funext fun a => Fin.ext ?_)).trans (transpose_ix2_apply _ transposes_S512x16_S16x512_1_0 g d)
  match a with
  | ⟨0, _⟩ => show win0_1.index t (0 : Fin 2) * 16 + 1 * g.val = g.val; omega
  | ⟨1, _⟩ => show win0_1.index t (1 : Fin 2) * 512 + 1 * d.val = d.val; omega

/-- Window 2's one block is the whole second table, the transpose of the third argument. -/
theorem slope_read (c : Dev nD) (t : Fin cfg0.N) (g : Fin 16) (d : Fin 512) :
    (iblk m c 2 t : Vec Ideal S16x512 .f32) (ix2 g d) = (m ((c : Thread nD τ).loc main_arg2) : S512x16.Idx → EReal) (ix2 d g) := by
  obtain ⟨-, -, -, -, e0, e1, -⟩ := block_index t
  unfold iblk
  rw [View.read_apply]
  show V m c main_v1 _ = _
  rw [table2]
  refine (congrArg _ (funext fun a => Fin.ext ?_)).trans (transpose_ix2_apply _ transposes_S512x16_S16x512_1_0 g d)
  match a with
  | ⟨0, _⟩ => show win0_2.index t (0 : Fin 2) * 16 + 1 * g.val = g.val; omega
  | ⟨1, _⟩ => show win0_2.index t (1 : Fin 2) * 512 + 1 * d.val = d.val; omega

/-- Window 3's one block is the whole mixing matrix. -/
theorem mix_read (c : Dev nD) (t : Fin cfg0.N) (q d : Fin 512) :
    (iblk m c 3 t : Vec Ideal S512x512 .f32) (ix2 q d) = (m ((c : Thread nD τ).loc main_arg3) : S512x512.Idx → EReal) (ix2 q d) := by
  obtain ⟨-, -, -, -, -, -, e0, e1, -⟩ := block_index t
  unfold iblk
  rw [View.read_apply]
  show V m c main_arg3 _ = _
  rw [V_main_arg3]
  refine congrArg _ (funext fun a => Fin.ext ?_)
  match a with
  | ⟨0, _⟩ => show win0_3.index t (0 : Fin 2) * 512 + 1 * q.val = q.val; omega
  | ⟨1, _⟩ => show win0_3.index t (1 : Fin 2) * 512 + 1 * d.val = d.val; omega

/-- Window 4's one block is the whole bias. -/
theorem bias_read (c : Dev nD) (t : Fin cfg0.N) (q : Fin 512) :
    (iblk m c 4 t : Vec Ideal S512 .f32) (ix1 q) = (m ((c : Thread nD τ).loc main_arg4) : S512.Idx → EReal) (ix1 q) := by
  obtain ⟨-, -, -, -, -, -, -, -, e0, -⟩ := block_index t
  unfold iblk
  rw [View.read_apply]
  show V m c main_arg4 _ = _
  rw [V_main_arg4]
  refine congrArg _ (funext fun a => Fin.ext ?_)
  match a with
  | ⟨0, _⟩ => show win0_4.index t (0 : Fin 1) * 512 + 1 * q.val = q.val; omega

/-! ## What a point writes back -/

/-- One entry of the result depends on its five ingredients only through their values. -/
theorem rowOut_congr {x x' : Fin 512 → EReal} {b b' s s' : Fin 512 → Fin 16 → EReal} {w w' : Fin 512 → EReal} {β β' : EReal}
    (hx : ∀ d, x d = x' d) (hb : ∀ d g, b d g = b' d g) (hs : ∀ d g, s d g = s' d g) (hw : ∀ d, w d = w' d) (hβ : β = β') :
    Cert.Spline.rowOut x b s w β = Cert.Spline.rowOut x' b' s' w' β' := by
  obtain rfl : x = x' := funext hx
  obtain rfl : b = b' := funext fun d => funext (hb d)
  obtain rfl : s = s' := funext fun d => funext (hs d)
  obtain rfl : w = w' := funext hw
  rw [hβ]

/-- Point t writes back block t of the layer: row p of its block is row 1024·t + p of the whole result. -/
theorem point_writes (c : Dev nD) (t : Fin cfg0.N) :
    (dats m 0 c).flushed 5 t = ((cfg0.win 5).blk t).view.read (Elt Ideal) (GG m c) := by
  rw [Value.flushed5]
  funext j
  obtain ⟨p, q, rfl⟩ : ∃ (p : Fin 1024) (q : Fin 512), j = ix2 p q := ⟨j 0, j 1, eq_ix2 j⟩
  obtain ⟨-, -, -, -, -, -, -, -, -, e0, e1⟩ := block_index t
  have hN : cfg0.N = 64 := N_0
  have ht : t.val < 64 := by have := t.isLt; omega
  have hr : 1024 * t.val + p.val < 65536 := by have := p.isLt; omega
  have hemb : ((cfg0.win 5).blk t).view.emb (ix2 p q) = (ix2 (⟨1024 * t.val + p.val, hr⟩ : Fin 65536) q : S65536x512.Idx) := by
    funext a; apply Fin.ext
    match a with
    | ⟨0, _⟩ => show win0_5.index t (0 : Fin 2) * 1024 + 1 * p.val = 1024 * t.val + p.val; omega
    | ⟨1, _⟩ => show win0_5.index t (1 : Fin 2) * 512 + 1 * q.val = q.val; omega
  rw [View.read_apply, hemb]
  show out0_5 (F := Ideal) _ _ _ _ _ (ix2 p q) = Cert.Spline.G _ _ _ _ _ (ix2 (⟨1024 * t.val + p.val, hr⟩ : Fin 65536) q)
  rw [Cert.Spline.G_ix2]
  unfold Cert.Spline.entry
  exact (Row.out_apply _ _ _ _ _ p q).trans (rowOut_congr (fun d => rows_read m c t p d _ rfl)
    (fun d g => base_read m c t g d) (fun d g => slope_read m c t g d) (fun d => mix_read m c t q d) (bias_read m c t q))

/-! ## The blocks cover the result -/

/-- An index of the result is in point t's block iff each coordinate is in the block's range on its axis. -/
theorem mem_block (t : Fin cfg0.N) (i : S65536x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v2).slice (win0_5.rect t)).set ↔ _
  rw [View.set_slice_whole, Rect.mem_set_unit]
  exact Iff.rfl

/-- Row r of the result lies in the block of point r / 1024: the 64 blocks cover the array. -/
theorem covered (i : S65536x512.Idx) : ∃ t : Fin cfg0.N, (cfg0.win 5).flush t = true ∧ i ∈ ((cfg0.win 5).blk t).view.set := by
  have hi0 : (i 0).val < 65536 := (i 0).isLt
  have hi1 : (i 1).val < 512 := (i 1).isLt
  have hN : cfg0.N = 64 := N_0
  have hlt : (i 0).val / 1024 < cfg0.N := by rw [hN]; omega
  obtain ⟨-, -, -, -, -, -, -, -, -, e0, e1⟩ := block_index ⟨(i 0).val / 1024, hlt⟩
  refine ⟨⟨(i 0).val / 1024, hlt⟩, flush0_5 _, ?_⟩
  rw [mem_block]
  intro a
  match a with
  | ⟨0, _⟩ =>
    show win0_5.index ⟨(i 0).val / 1024, hlt⟩ (0 : Fin 2) * 1024 ≤ (i 0).val ∧ (i 0).val < win0_5.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, hlt⟩ (1 : Fin 2) * 512 ≤ (i 1).val ∧ (i 1).val < win0_5.index ⟨(i 0).val / 1024, hlt⟩ (1 : Fin 2) * 512 + 512
    rw [e1]; omega

/-- So the result array ends holding the layer of the argument arrays. -/
theorem final (c : Dev nD) : (dats m 0 c).arrAt 5 cfg0.N = GG m c :=
  (dats m 0 c).arrAt_eq_of_cover 5 (GG m c) (fun t _ => point_writes m c t) covered

/-! ## The run, read -/

/-- The kernel program's run: the result array ends at the layer of the argument arrays, the arguments unchanged. -/
theorem run : θ_run (defs (F := Ideal)) (onTc (τ := τ) (main (F := Ideal))) ⟨m, fun _ => 0, ρ⟩ fun r => ∀ c : Dev nD,
      r.2.mem ((c : Thread nD τ).loc main_v2) = GG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole
end
-- ==== Proof.RefValue.lean ====
/-
  The reference program computes the specification.

  Entry by entry, the stages of the reference are read back to the function `Cert.Spline.G`: the clipped and scaled
  position of an input value, its cell number (an integer between 0 and 15) and its position inside the cell; the flat
  table index `d · 16 + cell` as a 32-bit word, which lies between 0 and 8191, so that it never wraps, is not negative,
  and is left alone by the gather's clamp into `[0, 8191]`; the gather from the flattened `[512, 16]` table, which
  therefore reads entry `(d, cell)`; and the contraction against the mixing matrix plus the bias.
-/
import proofs.«151163_j51934744543447_1_alg».proof.Proof.Gen.ReferenceIdeal.Read
import proofs.«151163_j51934744543447_1_alg».proof.Proof.Spline

noncomputable section

namespace Cert.ReferenceIdeal.RefValue

open Cert.ReferenceIdeal Cert.ReferenceIdeal.Gen Cert.ReferenceIdeal.Read Idealize.ShloMosaic Idealize.ShloMosaic.ValueIdx

/-! ## Position, cell and position inside the cell -/

/-- The clipped, scaled position of an entry of the input (the value converted to the cell number). -/
theorem v6_eq (X : (⟨S65536x512, .f32⟩ : BufTy).Contents (Elt Ideal)) (j : S65536x512.Idx) :
    val_main_v6 (F := Ideal) X j = Cert.Spline.pos (X j) := by
  rw [val_main_v6_apply, val_main_v4_apply, val_main_call0_v4_apply, val_main_call0_v3_apply, val_main_cst_2_apply,
    val_main_call0_v2_apply, val_main_call0_v1_apply, val_main_call0_v0_apply, val_main_cst_1_apply,
    val_main_v3_apply, val_main_v1_apply, val_main_v0_apply, val_main_cst_apply, val_main_v2_apply, val_main_cst_0_apply,
    val_main_v5_apply, val_main_cst_3_apply]
  rfl

/-- The same position, computed a second time (the value the cell number is subtracted from). -/
theorem v10_eq (X : (⟨S65536x512, .f32⟩ : BufTy).Contents (Elt Ideal)) (j : S65536x512.Idx) :
    val_main_v10 (F := Ideal) X j = Cert.Spline.pos (X j) := by
  rw [val_main_v10_apply, val_main_v4_apply, val_main_call0_v4_apply, val_main_call0_v3_apply, val_main_cst_2_apply,
    val_main_call0_v2_apply, val_main_call0_v1_apply, val_main_call0_v0_apply, val_main_cst_1_apply,
    val_main_v3_apply, val_main_v1_apply, val_main_v0_apply, val_main_cst_apply, val_main_v2_apply, val_main_cst_0_apply,
    val_main_v9_apply, val_main_cst_5_apply]
  rfl

/-- The cell number: the position's integer part, kept between 0 and 15. -/
theorem v8_eq (X : (⟨S65536x512, .f32⟩ : BufTy).Contents (Elt Ideal)) (j : S65536x512.Idx) :
    val_main_v8 (F := Ideal) X j = Cert.Spline.cell (X j) := by
  rw [val_main_v8_apply, val_main_call1_v4_apply, val_main_call1_v3_apply, val_main_c_4_apply,
    val_main_call1_v2_apply, val_main_call1_v1_apply, val_main_call1_v0_apply, val_main_c_apply,
    val_main_v7_apply, v6_eq]
  rfl

/-- The position inside the cell. -/
theorem v12_eq (X : (⟨S65536x512, .f32⟩ : BufTy).Contents (Elt Ideal)) (j : S65536x512.Idx) :
    val_main_v12 (F := Ideal) X j = Cert.Spline.frac (X j) := by
  rw [val_main_v12_apply, val_main_v11_apply, v10_eq, v8_eq]
  rfl

/-! ## The flat table index as a 32-bit word

For a feature number `d < 512` and a cell number `v < 16` the word `d · 16 + v` is the natural number
`16 d + v < 8192`: nothing wraps, it is not negative as a signed word, and clamping it into `[0, 8191]` leaves it
unchanged. -/

theorem word_toNat (d : Fin 512) (v : BitVec 32) (hv : v.toNat < 16) :
    (IntOp.addi (IntOp.muli (BitVec.ofNat 32 d.val) 16#32) v).toNat = 16 * d.val + v.toNat := by
  unfold IntOp.addi IntOp.muli
  have hd := d.isLt
  have h16 : (16#32 : BitVec 32).toNat = 16 := rfl
  rw [BitVec.toNat_add, BitVec.toNat_mul, BitVec.toNat_ofNat, h16]
  omega

theorem word_toInt (d : Fin 512) (v : BitVec 32) (hv : v.toNat < 16) :
    (IntOp.addi (IntOp.muli (BitVec.ofNat 32 d.val) 16#32) v).toInt = ((16 * d.val + v.toNat : Nat) : Int) := by
  have h := word_toNat d v hv
  have hd := d.isLt
  have e := BitVec.toInt_eq_toNat_cond (IntOp.addi (IntOp.muli (BitVec.ofNat 32 d.val) 16#32) v)
  rw [h] at e
  rw [e, if_pos (by omega)]

theorem word_not_neg (d : Fin 512) (v : BitVec 32) (hv : v.toNat < 16) :
    IntOp.cmpi .slt (IntOp.addi (IntOp.muli (BitVec.ofNat 32 d.val) 16#32) v) 0#32 = 0#1 := by
  have h := word_toInt d v hv
  show BitVec.ofBool ((IntOp.addi (IntOp.muli (BitVec.ofNat 32 d.val) 16#32) v).slt 0#32) = 0#1
  have h0 : (0#32 : BitVec 32).toInt = 0 := by decide
  have : (IntOp.addi (IntOp.muli (BitVec.ofNat 32 d.val) 16#32) v).slt 0#32 = false := by
    simp only [BitVec.slt, h, h0, decide_eq_false_iff_not, not_lt]
    omega
  rw [this]; rfl

theorem word_wrap (d : Fin 512) (v : BitVec 32) (hv : v.toNat < 16) :
    Scalar.select (IntOp.cmpi .slt (IntOp.addi (IntOp.muli (BitVec.ofNat 32 d.val) 16#32) v) 0#32)
      (IntOp.addi (IntOp.addi (IntOp.muli (BitVec.ofNat 32 d.val) 16#32) v) 8192#32)
      (IntOp.addi (IntOp.muli (BitVec.ofNat 32 d.val) 16#32) v)
      = IntOp.addi (IntOp.muli (BitVec.ofNat 32 d.val) 16#32) v := by
  rw [word_not_neg d v hv, select_zero]

theorem word_clamp (d : Fin 512) (v : BitVec 32) (hv : v.toNat < 16) :
    min (IntOp.addi (IntOp.muli (BitVec.ofNat 32 d.val) 16#32) v).toInt.toNat (8192 - 1) = 16 * d.val + v.toNat := by
  have hd := d.isLt
  rw [word_toInt d v hv, Int.toNat_natCast]
  omega

/-! ## The gathers -/

/-- The flat table index of entry `(r, d)`, after the negative-index wrap (which does nothing): feature `d` times 16
    plus the cell number. -/
theorem v24_eq (X : (⟨S65536x512, .f32⟩ : BufTy).Contents (Elt Ideal)) (r : Fin 65536) (d : Fin 512) :
    val_main_v24 (F := Ideal) X (ix2 r d)
      = IntOp.addi (IntOp.muli (BitVec.ofNat 32 d.val) 16#32) (Cert.Spline.cell (X (ix2 r d))) := by
  rw [val_main_v24_apply, val_main_v21_apply, val_main_v23_apply, val_main_v18_apply, val_main_v20_apply,
    val_main_c_7_apply, val_main_v22_apply, val_main_c_8_apply, val_main_v17_apply, val_main_v16_apply,
    val_main_v14_apply, val_main_v13_apply, val_main_v15_apply, val_main_c_6_apply, v8_eq]
  exact word_wrap d _ (Cert.Spline.clamp_lt _)

/-- The same index, computed a second time for the slopes. -/
theorem v32_eq (X : (⟨S65536x512, .f32⟩ : BufTy).Contents (Elt Ideal)) (r : Fin 65536) (d : Fin 512) :
    val_main_v32 (F := Ideal) X (ix2 r d)
      = IntOp.addi (IntOp.muli (BitVec.ofNat 32 d.val) 16#32) (Cert.Spline.cell (X (ix2 r d))) := by
  rw [val_main_v32_apply, val_main_v29_apply, val_main_v31_apply, val_main_v18_apply, val_main_v28_apply,
    val_main_c_9_apply, val_main_v30_apply, val_main_c_10_apply, val_main_v17_apply, val_main_v16_apply,
    val_main_v14_apply, val_main_v13_apply, val_main_v15_apply, val_main_c_6_apply, v8_eq]
  exact word_wrap d _ (Cert.Spline.clamp_lt _)

/-- Reading the flattened `[512, 16]` table `T` through the gather at `(r, d)`, when the start index there is the word
    `d · 16 + v` with `v < 16`: entry `(d, v)` of the table. -/
theorem take_table (T : (⟨S512x16, .f32⟩ : BufTy).Contents (Elt Ideal))
    (idx : (⟨S65536x512x1, .i32⟩ : BufTy).Contents (Elt Ideal)) (r : Fin 65536) (d : Fin 512)
    (v : BitVec 32) (hv : v.toNat < 16)
    (h : idx (takeIdx (ix2 r d)) = IntOp.addi (IntOp.muli (BitVec.ofNat 32 d.val) 16#32) v) :
    Host.gather gather_S8192_S65536x512x1_S65536x512_n_0_n_n_0_2_1 (val_main_v19 (F := Ideal) T) idx (ix2 r d)
      = T (ix2 d ⟨v.toNat, hv⟩) := by
  refine (gather_take_apply (N := 8192) (R := 65536) (C := 512) (by decide)
    gather_S8192_S65536x512x1_S65536x512_n_0_n_n_0_2_1_wf (val_main_v19 (F := Ideal) T) idx (ix2 r d)).trans ?_
  rw [val_main_v19_apply]
  have hm : min (BitVec.toInt (idx (takeIdx (ix2 r d)))).toNat (8192 - 1) = 16 * d.val + v.toNat := by
    rw [h]; exact word_clamp d v hv
  have hd := d.isLt
  refine congrArg T (funext fun a => Fin.ext ?_)
  match a with
  | ⟨0, _⟩ =>
    show (min (BitVec.toInt (idx (takeIdx (ix2 r d)))).toNat (8192 - 1)) / 16 = d.val
    rw [hm]; omega
  | ⟨1, _⟩ =>
    show (min (BitVec.toInt (idx (takeIdx (ix2 r d)))).toNat (8192 - 1)) % 16 = v.toNat
    rw [hm]; omega

/-- The start-index position of entry `(r, d)`, read back through the trailing unit axis, is `(r, d)`. -/
theorem idx25_take (r : Fin 65536) (d : Fin 512) : idx_main_v25 (takeIdx (ix2 r d)) = ix2 r d :=
  funext fun a => by match a with | ⟨0, _⟩ => rfl | ⟨1, _⟩ => rfl

theorem idx33_take (r : Fin 65536) (d : Fin 512) : idx_main_v33 (takeIdx (ix2 r d)) = ix2 r d :=
  funext fun a => by match a with | ⟨0, _⟩ => rfl | ⟨1, _⟩ => rfl

/-- The base value gathered for entry `(r, d)`: feature `d`'s table entry at the cell of `X (r, d)`. -/
theorem v26_eq (X : (⟨S65536x512, .f32⟩ : BufTy).Contents (Elt Ideal)) (B : (⟨S512x16, .f32⟩ : BufTy).Contents (Elt Ideal))
    (r : Fin 65536) (d : Fin 512) :
    val_main_v26 (F := Ideal) X B (ix2 r d) = B (ix2 d (Cert.Spline.cellIx (X (ix2 r d)))) := by
  have h : val_main_v25 (F := Ideal) X (takeIdx (ix2 r d))
      = IntOp.addi (IntOp.muli (BitVec.ofNat 32 d.val) 16#32) (Cert.Spline.cell (X (ix2 r d))) := by
    rw [val_main_v25_apply, idx25_take]; exact v24_eq X r d
  exact take_table B (val_main_v25 (F := Ideal) X) r d (Cert.Spline.cell (X (ix2 r d))) (Cert.Spline.clamp_lt _) h

/-- The slope gathered for entry `(r, d)`, likewise. -/
theorem v34_eq (X : (⟨S65536x512, .f32⟩ : BufTy).Contents (Elt Ideal)) (S : (⟨S512x16, .f32⟩ : BufTy).Contents (Elt Ideal))
    (r : Fin 65536) (d : Fin 512) :
    val_main_v34 (F := Ideal) X S (ix2 r d) = S (ix2 d (Cert.Spline.cellIx (X (ix2 r d)))) := by
  have h : val_main_v33 (F := Ideal) X (takeIdx (ix2 r d))
      = IntOp.addi (IntOp.muli (BitVec.ofNat 32 d.val) 16#32) (Cert.Spline.cell (X (ix2 r d))) := by
    rw [val_main_v33_apply, idx33_take]; exact v32_eq X r d
  exact take_table S (val_main_v33 (F := Ideal) X) r d (Cert.Spline.cell (X (ix2 r d))) (Cert.Spline.clamp_lt _) h

/-! ## The result -/

/-- The reference program's result is the specification: each entry `(r, o)` is the sum over the features `d` of the
    activation of `X (r, d)` against `M (o, d)`, plus the bias `b o`. -/
theorem ref_is_G (X : (⟨S65536x512, .f32⟩ : BufTy).Contents (Elt Ideal)) (B S : (⟨S512x16, .f32⟩ : BufTy).Contents (Elt Ideal))
    (M : (⟨S512x512, .f32⟩ : BufTy).Contents (Elt Ideal)) (b : (⟨S512, .f32⟩ : BufTy).Contents (Elt Ideal)) :
    Cert.ReferenceIdeal.Read.val_main_v40 (F := Ideal) X B S M b = Cert.Spline.G X B S M b := by
  funext i
  obtain ⟨r, o, rfl⟩ : ∃ (r : Fin 65536) (o : Fin 512), i = ix2 r o := ⟨i 0, i 1, eq_ix2 i⟩
  have hl : ∀ k : Fin 512, lidx_main_v37 (ix2 r o) k = ix2 r k :=
    fun k => funext fun a => by match a with | ⟨0, _⟩ => rfl | ⟨1, _⟩ => rfl
  have hr : ∀ k : Fin 512, ridx_main_v37 (ix2 r o) k = ix2 o k :=
    fun k => funext fun a => by match a with | ⟨0, _⟩ => rfl | ⟨1, _⟩ => rfl
  have hb : idx_main_v38 (idx_main_v39 (ix2 r o)) = ix1 o :=
    funext fun a => by match a with | ⟨0, _⟩ => rfl
  rw [Cert.Spline.G_ix2, val_main_v40_apply, val_main_v37_apply, val_main_v39_apply, val_main_v38_apply, hb]
  unfold Cert.Spline.entry Cert.Spline.rowOut Cert.Spline.spline
  refine congrArg (· + b (ix1 o)) (Finset.sum_congr rfl fun k _ => ?_)
  rw [hl, hr, val_main_v36_apply, val_main_v35_apply, v26_eq, v34_eq, v12_eq]
  rfl

end Cert.ReferenceIdeal.RefValue

end
-- ==== Proof.lean ====
/-
  The proof of `Cert.Claim` for the piecewise-linear activation layer: a tiled kernel that looks the per-feature
  table entries up with a chain of sixteen compare-and-selects and mixes the activations with a bf16 matrix product,
  against a reference that gathers the same entries from the flattened tables and mixes with one `dot_general`.

  On the extended reals both programs compute ONE function of the argument arrays (`Cert.Spline.G`, Proof/Spline.lean):
  entry `(r, o)` is the sum over the features `d` of `(base[d, cell] + slope[d, cell] · frac) · mix[o, d]`, plus
  `bias[o]`, where cell and frac are the integer and fractional parts of `clip((x[r, d] + 1) / 2, 0, 1 - 1e-6) · 16`.
  * The kernel side (Proof/KernelAct.lean, KernelRow.lean, KernelValue.lean): because the cell word is kept between 0
    and 15, exactly one of the sixteen compares succeeds, so the select chain is the table entry the word names
    (Proof/LibSelectChain.lean); rounding to bf16 is the identity on the extended reals and a matrix product into a
    zero accumulator is the plain sum; each grid point writes rows 1024·t … 1024·t + 1023 of that function and the 64
    points cover the array.
  * The reference side (Proof/RefValue.lean): `d · 16 + cell` stays between 0 and 8191, so the 32-bit arithmetic does
    not wrap, the negative-index correction and the gather's clamp do nothing, and the flattened table read there is
    `table[d, cell]`.
  No algebraic law beyond that is needed — the two sums have the same terms in the same order — so the finiteness
  precondition is never opened.  The three frame claims are the generated frames (the reference's is its run with the
  result dropped), and the idealization rewrote nothing, so `preserves` is trivial.
-/
import proofs.«151163_j51934744543447_1_alg».proof.Defs
import proofs.«151163_j51934744543447_1_alg».proof.Proof.Gen.Kernel
import proofs.«151163_j51934744543447_1_alg».proof.Proof.Gen.Kernel.Frame
import proofs.«151163_j51934744543447_1_alg».proof.Proof.Gen.KernelIdeal
import proofs.«151163_j51934744543447_1_alg».proof.Proof.Gen.KernelIdeal.Frame
import proofs.«151163_j51934744543447_1_alg».proof.Proof.Gen.KernelIdeal.Value
import proofs.«151163_j51934744543447_1_alg».proof.Proof.Gen.ReferenceIdeal
import proofs.«151163_j51934744543447_1_alg».proof.Proof.Gen.ReferenceIdeal.Run
import proofs.«151163_j51934744543447_1_alg».proof.Proof.Gen.ReferenceIdeal.Read
import proofs.«151163_j51934744543447_1_alg».proof.Proof.Gen.Pre_finite_inputs
import proofs.«151163_j51934744543447_1_alg».proof.Proof.KernelValue
import proofs.«151163_j51934744543447_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the layer `Cert.Spline.G` of those
    arguments in their result arrays: the kernel by its run over the whole output array, the reference by its run
    read stage by stage. -/
theorem algebraic : Cert.algebraic_KernelIdeal_ReferenceIdeal := by
  intro m ρ m' ρ' _ hagree
  refine ⟨fun c => Cert.KernelIdeal.Whole.GG m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.ref_is_G,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
